-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x2048 : Shape := ⟨3, ![16, 2048, 2048]⟩
abbrev S16x2048x64 : Shape := ⟨3, ![16, 2048, 64]⟩
abbrev S_ : Shape := ⟨0, ![]⟩

class Facts : Prop where
  bcast_S_S16x2048x2048 : S_.BroadcastsInDim S16x2048x2048 (![] : Fin 0 → Fin S16x2048x2048.rank)
  reducesTo_S16x2048x2048_S_d0_1_2 : S16x2048x2048.ReducesTo [0, 1, 2] S_
  h_S_ : 0 < S_.numel
  bcast_S_S16x2048x64 : S_.BroadcastsInDim S16x2048x64 (![] : Fin 0 → Fin S16x2048x64.rank)
  reducesTo_S16x2048x64_S_d0_1_2 : S16x2048x64.ReducesTo [0, 1, 2] S_

variable [Facts]

def fn {F : FTy → Type} [FloatOps F] (main_arg0 : FVec F S16x2048x2048 .f32) (main_arg1 : FVec F S16x2048x64 .f32) : IVec S_ 1 :=
  let main_v0 : FVec F S16x2048x2048 .f32 := Host.absf main_arg0
  let main_cst : FVec F S_ .f32 := constant S_ .f32 0x7F800000#32
  let main_v1 : FVec F S16x2048x2048 .f32 := broadcastInDim S16x2048x2048 ![] bcast_S_S16x2048x2048 main_cst
  let main_v2 : IVec S16x2048x2048 1 := cmpf .olt main_v0 main_v1
  let main_c : IVec S_ 1 := constantI S_ 1 1#1
  let main_v3 : IVec S_ 1 := (fun x v => Host.reduce IntOp.andi x v reducesTo_S16x2048x2048_S_d0_1_2 h_S_) main_v2 main_c
  let main_v4 : FVec F S16x2048x64 .f32 := Host.absf main_arg1
  let main_cst_0 : FVec F S_ .f32 := constant S_ .f32 0x7F800000#32
  let main_v5 : FVec F S16x2048x64 .f32 := broadcastInDim S16x2048x64 ![] bcast_S_S16x2048x64 main_cst_0
  let main_v6 : IVec S16x2048x64 1 := cmpf .olt main_v4 main_v5
  let main_c_1 : IVec S_ 1 := constantI S_ 1 1#1
  let main_v7 : IVec S_ 1 := (fun x v => Host.reduce IntOp.andi x v reducesTo_S16x2048x64_S_d0_1_2 h_S_) main_v6 main_c_1
  let main_v8 : IVec S_ 1 := andi main_v3 main_v7
  main_v8
-- ==== Kernel.lean ====
abbrev S16x2048x2048 : Shape := ⟨3, ![16, 2048, 2048]⟩
abbrev S16x2048x64 : Shape := ⟨3, ![16, 2048, 64]⟩
abbrev S1x1024x2048 : Shape := ⟨3, ![1, 1024, 2048]⟩
abbrev S1x2048x64 : Shape := ⟨3, ![1, 2048, 64]⟩
abbrev S1x1024x64 : Shape := ⟨3, ![1, 1024, 64]⟩
abbrev S1024x2048 : Shape := ⟨2, ![1024, 2048]⟩
abbrev S2048x64 : Shape := ⟨2, ![2048, 64]⟩
abbrev S1024x64 : Shape := ⟨2, ![1024, 64]⟩

abbrev nBuf : Space → Nat
  | .hbm => 3
  | .vmem => 6
  | .smem => 0
  | _ => 0

abbrev bufTy : (tb : Table) → Fin (tcTables nBuf tb) → BufTy
  | .hbm, ⟨0, _⟩ => ⟨S16x2048x2048, .f32⟩
  | .hbm, ⟨1, _⟩ => ⟨S16x2048x64, .f32⟩
  | .hbm, ⟨2, _⟩ => ⟨S16x2048x64, .f32⟩
  | .local _ .vmem, ⟨0, _⟩ => ⟨S1x1024x2048, .f32⟩
  | .local _ .vmem, ⟨1, _⟩ => ⟨S1x1024x2048, .f32⟩
  | .local _ .vmem, ⟨2, _⟩ => ⟨S1x2048x64, .f32⟩
  | .local _ .vmem, ⟨3, _⟩ => ⟨S1x2048x64, .f32⟩
  | .local _ .vmem, ⟨4, _⟩ => ⟨S1x1024x64, .f32⟩
  | .local _ .vmem, ⟨5, _⟩ => ⟨S1x1024x64, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S16x2048x2048.size a
  hwx0_0 : ∀ i : grid0.Coords, EltTy.bits .f32 = 32 ∨ (Rect.block (s := S16x2048x2048) S1x1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S16x2048x64.size a
  hwx0_1 : ∀ i : grid0.Coords, EltTy.bits .f32 = 32 ∨ (Rect.block (s := S16x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S16x2048x64.size a
  hwx0_2 : ∀ i : grid0.Coords, EltTy.bits .f32 = 32 ∨ (Rect.block (s := S16x2048x64) S1x1024x64.size (cc0_transform_2 i) (hinb0_2 i)).WholeWords (EltTy.packing .f32)

variable [Facts₀]

def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg0) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x2048x2048 : Shape := ⟨3, ![16, 2048, 2048]⟩
abbrev S16x2048x64 : Shape := ⟨3, ![16, 2048, 64]⟩

abbrev nBuf : Space → Nat
  | .hbm => 3
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S16x2048x64, .f32⟩
  | .hbm, ⟨2, _⟩ => ⟨S16x2048x64, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S16x2048x2048_S16x2048x64_S16x2048x64_2_1_1_2_0_0_wf : DotDims.WF S16x2048x2048 S16x2048x64 S16x2048x64 [2] [1] [1] [2] [0] [0]

variable [Facts₀]

def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf

class Facts : Prop extends Facts₀ where

variable [Facts]
-- ==== Proof.BatchProduct.lean ====
/-
  The batched matrix product, entry by entry.

  For sixteen pairs of matrices `A[b]` (2048 × 2048) and `B[b]` (2048 × 64) the product `C[b] = A[b] · B[b]` has, at
  row `r` and column `q`, the entry `∑ k, A[b, r, k] · B[b, k, q]`, the sum over the 2048 positions of the shared
  axis. The sum is taken on the extended reals, where addition and multiplication are total, so the entry is
  defined for every pair of arrays and no finiteness is asked of them. `entry` is that sum at three coordinates,
  `prod` the whole array, and `prod_apply_of_coords` reads `prod` at an index whose three coordinates are known.
-/
import Idealize.ShloMosaic.PureOps.Ideal
import Idealize.ShloMosaic.Lib.ValueIdx

noncomputable section

namespace Cert.BatchProduct

open Idealize.ShloMosaic Idealize.ShloMosaic.ValueIdx

/-- The entry of `A[b] · B[b]` at row `r` and column `q`: the sum over `k` of `A[b, r, k] · B[b, k, q]`. -/
def entry (A : (⟨3, ![16, 2048, 2048]⟩ : Shape).Idx → EReal) (B : (⟨3, ![16, 2048, 64]⟩ : Shape).Idx → EReal)
    (b : Fin 16) (r : Fin 2048) (q : Fin 64) : EReal :=
  ∑ k : Fin 2048, A (ix3 b r k) * B (ix3 b k q)

/-- The sixteen products as one array: at `(b, r, q)` the entry of `A[b] · B[b]` at `(r, q)`. -/
def prod (A : (⟨3, ![16, 2048, 2048]⟩ : Shape).Idx → EReal) (B : (⟨3, ![16, 2048, 64]⟩ : Shape).Idx → EReal) :
    (⟨3, ![16, 2048, 64]⟩ : Shape).Idx → EReal :=
  fun i => entry A B (i 0) (i 1) (i 2)

/-- `prod` at an index with coordinates `(b, r, q)` is the entry at `(b, r, q)`. -/
theorem prod_apply_of_coords (A : (⟨3, ![16, 2048, 2048]⟩ : Shape).Idx → EReal)
    (B : (⟨3, ![16, 2048, 64]⟩ : Shape).Idx → EReal) (i : (⟨3, ![16, 2048, 64]⟩ : Shape).Idx)
    (b : Fin 16) (r : Fin 2048) (q : Fin 64)
    (h0 : (i 0).val = b.val) (h1 : (i 1).val = r.val) (h2 : (i 2).val = q.val) :
    prod A B i = entry A B b r q := by
  have e : i = ix3 b r q := funext fun a => by
    match a with
    | ⟨0, _⟩ => exact Fin.ext h0
    | ⟨1, _⟩ => exact Fin.ext h1
    | ⟨2, _⟩ => exact Fin.ext h2
  subst e
  rfl

end Cert.BatchProduct

end
-- ==== Proof.LibDotSum.lean ====
/-
  A product contracted over one axis, a bias repeated over rows, and the word for the number one, at an index.

  Three facts about arrays of extended reals read at one entry, none of which mentions a particular size. A product
  of an `M × K` by a `K × N` array contracted over the shared axis is, at `(p, q)`, the sum over `k : Fin K` of
  `A (p, k) · B (k, q)` (`sum_dot`): the contraction's index set has a single axis, so it is in bijection with that
  axis's coordinate, and the operand indices at output `(p, q)` and contraction position `k` are `(p, k)` and `(k, q)`.
  A vector of `m` column values laid out as the one row `[1, m]` and repeated over `n` rows reads, at `(p, q)`, its
  entry `q` (`bias_apply`): a repeated axis of extent one reads coordinate `0`, every other axis its own coordinate.
  The 32-bit word `0x3F800000` denotes the number one (`one_f32`). `add3` is the congruence of a sum of three terms.
-/
import Idealize.ShloMosaic.PureOps.Ideal.Laws
import Idealize.ShloMosaic.Lib.ValueIdx
import Idealize.ShloMosaic.Lib.Pipeline.Value

noncomputable section

namespace Cert.LibDotSum

open Idealize.ShloMosaic Idealize.ShloMosaic.ValueIdx

/-! ## A contraction over one axis as a sum over that axis's coordinate -/

/-- For a product of an `M × K` by a `K × N` array contracted over the shared axis, the sum over the contraction
    index set is the sum over `k : Fin K` of `A (p, k) · B (k, q)`: the contraction index is its one coordinate, and
    the operand indices at output `(p, q)` are `(p, k)` and `(k, q)` (the four hypotheses, which compute on a
    given record of dimension numbers). -/
theorem sum_dot {M K N : Nat} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (A : (⟨2, ![M, K]⟩ : Shape).Idx → EReal) (B : (⟨2, ![K, N]⟩ : Shape).Idx → EReal) (p : Fin M) (q : Fin N) :
    ∑ k : D.contr.Idx, A (D.lhsIdx (ix2 p q) k) * B (D.rhsIdx (ix2 p q) k) = ∑ k : Fin K, A (ix2 p k) * B (ix2 k q) := by
  refine Fintype.sum_equiv (contrEquiv1 D K hr hs) _ _ fun k => ?_
  have ha : D.lhsIdx (ix2 p q) k = ix2 p (contrEquiv1 D K hr hs k) := by
    funext a
    match a with
    | ⟨0, _⟩ => exact Fin.ext (hl0 _ k)
    | ⟨1, _⟩ => exact Fin.ext (hl1 _ k)
  have hb : D.rhsIdx (ix2 p q) k = ix2 (contrEquiv1 D K hr hs k) q := by
    funext a
    match a with
    | ⟨0, _⟩ => exact Fin.ext (hr0 _ k)
    | ⟨1, _⟩ => exact Fin.ext (hr1 _ k)
  rw [ha, hb]

/-- Three summands equal term by term. -/
theorem add3 {a b c a' b' c' : EReal} (h1 : a = a') (h2 : b = b') (h3 : c = c') : a + b + c = a' + b' + c' := by
  rw [h1, h2, h3]

/-! ## The word for the number one -/

/-- The word `0x3F800000` is the number one. -/
theorem one_f32 : Ideal.ofBits .f32 0x3F800000#32 = 1 := IdealRules.sign_bit.ideal_onePat .f32

/-! ## A bias repeated over rows, at an index -/

/-- A bias vector `[m]`, laid out as the one row `[1, m]` and repeated over `n` rows, reads at `(p, q)` its entry `q`. -/
theorem bias_apply {n m : Nat} {α : Type} (b : (⟨1, ![m]⟩ : Shape).Idx → α)
    (h1 : (⟨1, ![m]⟩ : Shape).BroadcastsInDim ⟨2, ![1, m]⟩ ![1])
    (h2 : (⟨2, ![1, m]⟩ : Shape).BroadcastsInDim ⟨2, ![n, m]⟩ ![0, 1]) (p : Fin n) (q : Fin m) :
    broadcastInDim ⟨2, ![n, m]⟩ ![0, 1] h2 (broadcastInDim ⟨2, ![1, m]⟩ ![1] h1 b) (ix2 p q) = b (ix1 q) := by
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if m = 1 then 0 else q.val
      split
      · have := q.isLt; omega
      · rfl
  · match a with
    | ⟨0, _⟩ =>
      show q.val = if m = 1 then 0 else q.val
      split
      · have := q.isLt; omega
      · rfl

end Cert.LibDotSum

end
-- ==== Proof.BlockPayload.lean ====
/-
  What the kernel body computes from one pair of blocks, entry by entry.

  At a grid point the body loads a `[1, 1024, 2048]` block of `A` and a `[1, 2048, 64]` block of `B`, drops the
  leading unit axis of each, multiplies the `1024 × 2048` by the `2048 × 64` matrix into a zero accumulator, and
  stores the result with the unit axis put back. The change of number format in front of the product is the
  identity on the extended reals. So the stored value at `(u, p, q)` is `∑ k, x0 (0, p, k) · x1 (0, k, q)`
  (`payload_apply`); and when the two blocks are the rows `s · 1024 + p` of `A[b]` and the whole of `B[b]`, that is
  the entry of `A[b] · B[b]` at row `s · 1024 + p` and column `q` (`payload_eq_entry`).
-/
import proofs.«137651_j89421219103268_2_alg».proof.Proof.Gen.KernelIdeal.Skeleton
import proofs.«137651_j89421219103268_2_alg».proof.Proof.BatchProduct
import proofs.«137651_j89421219103268_2_alg».proof.Proof.LibDotSum
import Idealize.ShloMosaic.Lib.ValueLayout
import Idealize.ShloMosaic.PureOps.Ideal.Laws

noncomputable section

namespace Cert.KernelIdeal.BlockPayload

open Cert.KernelIdeal Cert.KernelIdeal.Gen Idealize.ShloMosaic Idealize.ShloMosaic.ValueIdx

/-- The body's stored value at `(u, p, q)`: the sum over `k` of the first block at `(0, p, k)` times the second at
    `(0, k, q)`. -/
theorem payload_apply (x0 : Vec Ideal S1x1024x2048 .f32) (x1 : Vec Ideal S1x2048x64 .f32)
    (u : Fin 1) (p : Fin 1024) (q : Fin 64) :
    k0_pay1 (F := Ideal) x0 x1 (ix3 u p q)
      = ∑ k : Fin 2048, x0 (ix3 (0 : Fin 1) p k) * x1 (ix3 (0 : Fin 1) k q) := by
  unfold k0_pay1
  refine (shapeCast_ab_1ab_apply _ _ u p q).trans ?_
  refine (Ideal.matmul_constant_zero_apply dot_S1024x2048_S2048x64_S1024x64_1_0_0_1_n_n none _ _ (ix2 p q)).trans ?_
  refine (Cert.LibDotSum.sum_dot dot_S1024x2048_S2048x64_S1024x64_1_0_0_1_n_n rfl rfl
    (fun _ _ => rfl) (fun _ _ => rfl) (fun _ _ => rfl) (fun _ _ => rfl) _ _ p q).trans ?_
  refine Finset.sum_congr rfl fun k _ => ?_
  show shapeCast S1024x2048 x0 shapeCasts_S1x1024x2048_S1024x2048 (ix2 p k)
      * shapeCast S2048x64 x1 shapeCasts_S1x2048x64_S2048x64 (ix2 k q) = _
  rw [shapeCast_1ab_ab_apply, shapeCast_1ab_ab_apply]

/-- When the first block holds the rows `s · 1024 + p` of `A[b]` and the second block is `B[b]`, the stored value at
    `(u, p, q)` is the entry of `A[b] · B[b]` at row `s · 1024 + p` and column `q`. -/
theorem payload_eq_entry (A : S16x2048x2048.Idx → EReal) (B : S16x2048x64.Idx → EReal)
    (x0 : Vec Ideal S1x1024x2048 .f32) (x1 : Vec Ideal S1x2048x64 .f32) (b : Fin 16) (s : Fin 2)
    (row : Fin 1024 → Fin 2048) (hrow : ∀ p, (row p).val = s.val * 1024 + p.val)
    (h0 : ∀ (p : Fin 1024) (k : Fin 2048), x0 (ix3 (0 : Fin 1) p k) = A (ix3 b (row p) k))
    (h1 : ∀ (k : Fin 2048) (q : Fin 64), x1 (ix3 (0 : Fin 1) k q) = B (ix3 b k q))
    (u : Fin 1) (p : Fin 1024) (q : Fin 64) :
    k0_pay1 (F := Ideal) x0 x1 (ix3 u p q) = Cert.BatchProduct.entry A B b (row p) q := by
  rw [payload_apply]
  exact Finset.sum_congr rfl fun k _ => by rw [h0, h1]

end Cert.KernelIdeal.BlockPayload

end
-- ==== Proof.BlocksToArray.lean ====
/-
  From the blocks the grid points write to the whole result array.

  The grid has 16 × 2 points. Point `t = (b, s)` reads the block of `A` with batch `b` and rows
  `s · 1024 … s · 1024 + 1023` (all 2048 columns), reads the whole of `B[b]`, and writes the block of the result
  with batch `b`, the same rows, and all 64 columns. By the body's value (`payload_eq_entry`) what it writes is
  that block of the batched product of the two argument arrays (`written_eq`). Every index `(b, r, q)` of the result
  lies in the block of the point `(b, r / 1024)` (`covered`), so after the last point the result array is the
  batched product (`result_eq`), and the run ends with it there and the arguments unchanged (`run`).
-/
import proofs.«137651_j89421219103268_2_alg».proof.Proof.Gen.KernelIdeal.Value
import proofs.«137651_j89421219103268_2_alg».proof.Proof.BlockPayload

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The three zero offsets, as the constant function. -/
theorem zeros3 : (![0, 0, 0] : Fin 3 → Nat) = fun _ => 0 := funext fun a => by fin_cases a <;> rfl

/-- The block indices at a grid point, decided over the 32 points: the block of `A` has the batch and the row tile of
    the result's block and column block 0; the block of `B` has the result's batch and is otherwise block 0; the
    result's column block is 0, its batch at most 15 and its row tile at most 1. -/
theorem index_facts : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = 0
    ∧ win0_1.index t (2 : Fin 3) = 0
    ∧ win0_2.index t (2 : Fin 3) = 0
    ∧ win0_2.index t (0 : Fin 3) ≤ 15
    ∧ win0_2.index t (1 : Fin 3) ≤ 1 :=
  (by decide +kernel : ∀ t : Fin grid0.N, _)

/-- Every batch and row tile is some point's. -/
theorem index_onto : ∀ (b : Fin 16) (s : Fin 2), ∃ t : Fin cfg0.N, win0_2.index t = ![b.val, s.val, 0] :=
  (by decide +kernel : ∀ (b : Fin 16) (s : Fin 2), ∃ t : Fin grid0.N, win0_2.index t = ![b.val, s.val, 0])

/-- What point `t` writes back is its block of the batched product of the argument arrays. -/
theorem written_eq (c : Dev nD) (t : Fin cfg0.N) :
    (dats m 0 c).flushed 2 t
      = ((cfg0.win 2).blk t).view.read (Elt Ideal) (Cert.BatchProduct.prod (V m c main_arg0) (V m c main_arg1)) := by
  rw [Cert.KernelIdeal.Value.flushed2]
  unfold out0_2
  rw [View.canon_unit_zero zeros3]
  simp only [View.ld_unit_zero (S := S1x1024x2048) zeros3, View.ld_unit_zero (S := S1x2048x64) zeros3]
  obtain ⟨a0, a1, a2, b0, b1, b2, o2, o0, o1⟩ := index_facts t
  funext j
  have hj0 : (j 0).val < 1 := (j 0).isLt
  have hj1 : (j 1).val < 1024 := (j 1).isLt
  have hj2 : (j 2).val < 64 := (j 2).isLt
  show k0_pay1 (F := Ideal) (iblk m c 0 t) (iblk m c 1 t) j
      = Cert.BatchProduct.prod (V m c main_arg0) (V m c main_arg1) (((cfg0.win 2).blk t).view.emb j)
  have key := Cert.KernelIdeal.BlockPayload.payload_eq_entry (V m c main_arg0) (V m c main_arg1)
    (iblk m c 0 t) (iblk m c 1 t) ⟨win0_2.index t (0 : Fin 3), by omega⟩ ⟨win0_2.index t (1 : Fin 3), by omega⟩
    (fun p => ⟨win0_2.index t (1 : Fin 3) * 1024 + p.val, by have := p.isLt; omega⟩) (fun _ => rfl)
    (fun p k => by
      show V m c main_arg0 (((cfg0.win 0).blk t).view.emb (ix3 (0 : Fin 1) p k)) = V m c main_arg0 _
      refine congrArg _ (funext fun a => Fin.ext ?_)
      match a with
      | ⟨0, _⟩ => show win0_0.index t (0 : Fin 3) * 1 + 1 * 0 = win0_2.index t (0 : Fin 3); omega
      | ⟨1, _⟩ => show win0_0.index t (1 : Fin 3) * 1024 + 1 * p.val = win0_2.index t (1 : Fin 3) * 1024 + p.val; omega
      | ⟨2, _⟩ => show win0_0.index t (2 : Fin 3) * 2048 + 1 * k.val = k.val; omega)
    (fun k q => by
      show V m c main_arg1 (((cfg0.win 1).blk t).view.emb (ix3 (0 : Fin 1) k q)) = V m c main_arg1 _
      refine congrArg _ (funext fun a => Fin.ext ?_)
      match a with
      | ⟨0, _⟩ => show win0_1.index t (0 : Fin 3) * 1 + 1 * 0 = win0_2.index t (0 : Fin 3); omega
      | ⟨1, _⟩ => show win0_1.index t (1 : Fin 3) * 2048 + 1 * k.val = k.val; omega
      | ⟨2, _⟩ => show win0_1.index t (2 : Fin 3) * 64 + 1 * q.val = q.val; omega)
    (j 0) (j 1) (j 2)
  refine ((congrArg (k0_pay1 (F := Ideal) (iblk m c 0 t) (iblk m c 1 t)) (eq_ix3 j)).trans key).trans ?_
  refine (Cert.BatchProduct.prod_apply_of_coords _ _ _ _ _ _ ?_ ?_ ?_).symm
  · show win0_2.index t (0 : Fin 3) * 1 + 1 * (j 0).val = win0_2.index t (0 : Fin 3); omega
  · show win0_2.index t (1 : Fin 3) * 1024 + 1 * (j 1).val = win0_2.index t (1 : Fin 3) * 1024 + (j 1).val; omega
  · show win0_2.index t (2 : Fin 3) * 64 + 1 * (j 2).val = (j 2).val; omega

/-- An index of the result is in point `t`'s block iff each coordinate is in the block's range on its axis. -/
theorem mem_block (t : Fin cfg0.N) (i : S16x2048x64.Idx) :
    i ∈ ((cfg0.win 2).blk t).view.set ↔ ∀ a : Fin 3, win0_2.index t a * S1x1024x64.size a ≤ (i a).val
      ∧ (i a).val < win0_2.index t a * S1x1024x64.size a + S1x1024x64.size a := by
  show i ∈ ((View.whole main_v0).slice (win0_2.rect t)).set ↔ _
  rw [View.set_slice_whole, Rect.mem_set_unit]
  exact Iff.rfl

/-- Every index `(b, r, q)` of the result is in the block of the point with batch `b` and row tile `r / 1024`. -/
theorem covered (i : S16x2048x64.Idx) :
    ∃ t : Fin cfg0.N, (cfg0.win 2).flush t = true ∧ i ∈ ((cfg0.win 2).blk t).view.set := by
  have hi0 : (i 0).val < 16 := (i 0).isLt
  have hi1 : (i 1).val < 2048 := (i 1).isLt
  have hi2 : (i 2).val < 64 := (i 2).isLt
  obtain ⟨t, ht⟩ := index_onto ⟨(i 0).val, hi0⟩ ⟨(i 1).val / 1024, by omega⟩
  have q0 : win0_2.index t (0 : Fin 3) = (i 0).val := congrFun ht 0
  have q1 : win0_2.index t (1 : Fin 3) = (i 1).val / 1024 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 64 ≤ (i 2).val ∧ (i 2).val < win0_2.index t (2 : Fin 3) * 64 + 64; omega

/-- After the last grid point the result array is the batched product of the argument arrays. -/
theorem result_eq (c : Dev nD) :
    (dats m 0 c).arrAt 2 cfg0.N
      = Cert.BatchProduct.prod (m ((c : Thread nD τ).loc main_arg0)) (m ((c : Thread nD τ).loc main_arg1)) :=
  (dats m 0 c).arrAt_eq_of_cover 2 _ (fun t _ => written_eq m c t) covered

/-- Every weakly fair execution of the kernel's program ends with the result array at the batched product of the
    argument arrays, and the arguments unchanged. -/
theorem run : θ_run defs (onTc (τ := τ) (main (F := Ideal))) ⟨m, fun _ => 0, ρ⟩ fun r => ∀ c : Dev nD,
      r.2.mem ((c : Thread nD τ).loc main_v0)
        = Cert.BatchProduct.prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_eq m c), (h c).2⟩)
    (Cert.KernelIdeal.Value.run_blocks m ρ)

end Cert.KernelIdeal.Whole

end
-- ==== Proof.ReferenceProduct.lean ====
/-
  The reference computes the batched product.

  The reference is one contraction of `A` with `B` that keeps axis 0 of both as the batch axis and contracts axis 2
  of `A` with axis 1 of `B`. Read at an index `i = (b, r, q)` of the result it is the sum over `k` of
  `A (b, r, k) · B (b, k, q)`: the entry of `A[b] · B[b]` at `(r, q)`.
-/
import proofs.«137651_j89421219103268_2_alg».proof.Proof.Gen.ReferenceIdeal.Read
import proofs.«137651_j89421219103268_2_alg».proof.Proof.BatchProduct

noncomputable section

namespace Cert.ReferenceIdeal.RefProduct

open Cert.ReferenceIdeal Idealize.ShloMosaic Idealize.ShloMosaic.ValueIdx

/-- The reference's one operation, at the extended reals, is the batched product of its operands. -/
theorem reference_eq (x0 : (⟨S16x2048x2048, .f32⟩ : BufTy).Contents (Elt Ideal))
    (x1 : (⟨S16x2048x64, .f32⟩ : BufTy).Contents (Elt Ideal)) :
    Cert.ReferenceIdeal.Read.val_main_v0 (F := Ideal) x0 x1 = Cert.BatchProduct.prod x0 x1 := by
  funext i
  rw [Cert.ReferenceIdeal.Read.val_main_v0_apply]
  show _ = ∑ k : Fin 2048, x0 (ix3 (i 0) (i 1) k) * x1 (ix3 (i 0) k (i 2))
  refine Finset.sum_congr rfl fun k _ => ?_
  have el : Cert.ReferenceIdeal.Read.lidx_main_v0 i k = ix3 (i 0) (i 1) k := funext fun a => by
    match a with
    | ⟨0, _⟩ => rfl
    | ⟨1, _⟩ => rfl
    | ⟨2, _⟩ => rfl
  have er : Cert.ReferenceIdeal.Read.ridx_main_v0 i k = ix3 (i 0) k (i 2) := funext fun a => by
    match a with
    | ⟨0, _⟩ => rfl
    | ⟨1, _⟩ => rfl
    | ⟨2, _⟩ => rfl
  rw [el, er]
  rfl

end Cert.ReferenceIdeal.RefProduct

end
-- ==== Proof.lean ====
/-
  A batched matrix product computed tile by tile is the batched matrix product.

  The kernel walks a grid of 16 × 2 points; at point `(b, s)` it multiplies the rows `s · 1024 … s · 1024 + 1023`
  of `A[b]` (a `1024 × 2048` matrix) by `B[b]` (`2048 × 64`) and writes the `1024 × 64` result into the same rows
  of `C[b]`. The reference is one contraction `C[b, r, q] = ∑ k, A[b, r, k] · B[b, k, q]`. On the extended reals
  a change of number format is the identity and a matrix product into a zero accumulator is the plain sum of
  products, so each point writes exactly the rows of the reference's result it is responsible for, and the 32
  blocks tile the result array. Both sides are the same sum of the same products term by term, so no law of
  arithmetic beyond `0 + x = x` is used and nothing is asked of the inputs.

  The modules: `BatchProduct` states the product entry by entry; `BlockPayload` reads the body's stored value at an
  index; `BlocksToArray` assembles the blocks into the whole result and states the kernel's run;
  `ReferenceProduct` reads the reference's contraction at an index. Here the five claims are put together: the
  three frames (each program terminates without a fault and leaves its arguments unchanged), the idealization
  (nothing was rewritten, so there is nothing to show), and the equality of the two results.
-/
import proofs.«137651_j89421219103268_2_alg».proof.Defs
import proofs.«137651_j89421219103268_2_alg».proof.Proof.Gen.Kernel
import proofs.«137651_j89421219103268_2_alg».proof.Proof.Gen.Kernel.Skeleton
import proofs.«137651_j89421219103268_2_alg».proof.Proof.Gen.Kernel.Launch
import proofs.«137651_j89421219103268_2_alg».proof.Proof.Gen.Kernel.Points
import proofs.«137651_j89421219103268_2_alg».proof.Proof.Gen.Kernel.Frame
import proofs.«137651_j89421219103268_2_alg».proof.Proof.Gen.KernelIdeal
import proofs.«137651_j89421219103268_2_alg».proof.Proof.Gen.KernelIdeal.Skeleton
import proofs.«137651_j89421219103268_2_alg».proof.Proof.Gen.KernelIdeal.Launch
import proofs.«137651_j89421219103268_2_alg».proof.Proof.Gen.KernelIdeal.Points
import proofs.«137651_j89421219103268_2_alg».proof.Proof.Gen.KernelIdeal.Frame
import proofs.«137651_j89421219103268_2_alg».proof.Proof.Gen.ReferenceIdeal
import proofs.«137651_j89421219103268_2_alg».proof.Proof.Gen.Pre_finite_inputs
import proofs.«137651_j89421219103268_2_alg».proof.Proof.Gen.KernelIdeal.Value
import proofs.«137651_j89421219103268_2_alg».proof.Proof.Gen.ReferenceIdeal.Run
import proofs.«137651_j89421219103268_2_alg».proof.Proof.Gen.ReferenceIdeal.Read
import proofs.«137651_j89421219103268_2_alg».proof.Proof.BlocksToArray
import proofs.«137651_j89421219103268_2_alg».proof.Proof.ReferenceProduct
import Idealize.ShloMosaic.Adequacy
import Idealize.ShloMosaic.Init

noncomputable section

namespace Cert.Proof

open Idealize.ShloMosaic Idealize.SL.Sem

/-- The kernel as printed terminates without a fault and leaves its arguments unchanged. -/
theorem frame_kernel : Cert.frame_Kernel (hKernel := Cert.Kernel.Gen.facts) (hPre_finite_inputs := Cert.Pre_finite_inputs.Gen.facts) :=
  fun m ρ _ => Cert.Kernel.Gen.frame m ρ

/-- So does the kernel read on the extended reals. -/
theorem frame_kernel_ideal : Cert.frame_KernelIdeal (hKernelIdeal := Cert.KernelIdeal.Gen.facts) (hPre_finite_inputs := Cert.Pre_finite_inputs.Gen.facts) :=
  fun m ρ _ => Cert.KernelIdeal.Gen.frame m ρ

/-- So does the reference: its run, with the statement about the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- From memories that agree on `A` and `B`, both programs end with the batched product `A[b] · B[b]` in the result:
    the kernel by its blocks (`Whole.run`), the reference by its one contraction (`reference_eq`). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, Cert.ReferenceIdeal.RefProduct.reference_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
